-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 136
  | .vmem => 30
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S_, .f32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S_, .f32⟩
  | 49 => ⟨S100000, .f32⟩
  | 50 => ⟨S100000, .f32⟩
  | 51 => ⟨S100000x1, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x1, .f32⟩
  | 63 => ⟨S1600000x64, .f32⟩
  | 64 => ⟨S1600000x64, .f32⟩
  | 65 => ⟨S_, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S100000x64, .f32⟩
  | 76 => ⟨S100000x64, .f32⟩
  | 77 => ⟨S100000x64, .f32⟩
  | 78 => ⟨S100000x64, .f32⟩
  | 79 => ⟨S100000x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1600000x1, .f32⟩
  | 91 => ⟨S1600000x64, .f32⟩
  | 92 => ⟨S1600000x64, .f32⟩
  | 93 => ⟨S_, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S100000x64, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x1, .f32⟩
  | 119 => ⟨S1600000x64, .f32⟩
  | 120 => ⟨S1600000x64, .f32⟩
  | 121 => ⟨S_, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S100000x64, .f32⟩
  | 4 => ⟨S100000x64, .f32⟩
  | 5 => ⟨S100000x64, .f32⟩
  | 6 => ⟨S100000x64, .f32⟩
  | 7 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_20 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 236
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .f32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S100000x64, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S100000x64, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .i1⟩
  | 85 => ⟨S_, .f32⟩
  | 86 => ⟨S100000x64, .f32⟩
  | 87 => ⟨S100000x64, .f32⟩
  | 88 => ⟨S100000x64, .f32⟩
  | 89 => ⟨S100000x64, .f32⟩
  | 90 => ⟨S_, .f32⟩
  | 91 => ⟨S100000, .f32⟩
  | 92 => ⟨S_, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S100000, .f32⟩
  | 103 => ⟨S_, .f32⟩
  | 104 => ⟨S100000, .f32⟩
  | 105 => ⟨S100000, .f32⟩
  | 106 => ⟨S100000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S1600000, .f32⟩
  | 126 => ⟨S_, .f32⟩
  | 127 => ⟨S100000x64, .f32⟩
  | _ => ⟨S100000x64, .f32⟩

abbrev hbmTy0_1 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x64, .f32⟩
  | 11 => ⟨S1600000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S100000x64, .f32⟩
  | 21 => ⟨S_, .f32⟩
  | 22 => ⟨S100000, .f32⟩
  | 23 => ⟨S100000, .f32⟩
  | 24 => ⟨S100000x1, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S100000x64, .f32⟩
  | 32 => ⟨S_, .f32⟩
  | 33 => ⟨S100000, .f32⟩
  | 34 => ⟨S_, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000, .f32⟩
  | 67 => ⟨S1600000, .f32⟩
  | 68 => ⟨S_, .f32⟩
  | 69 => ⟨S100000x64, .f32⟩
  | 70 => ⟨S1600000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S1600000x64, .f32⟩
  | 81 => ⟨S1600000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S100000x64, .f32⟩
  | 91 => ⟨S_, .f32⟩
  | 92 => ⟨S100000, .f32⟩
  | 93 => ⟨S100000, .f32⟩
  | 94 => ⟨S100000x1, .f32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .i1⟩
  | 104 => ⟨S_, .f32⟩
  | 105 => ⟨S100000x64, .f32⟩
  | 106 => ⟨S100000x64, .f32⟩
  | 107 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_cst_16 : Ref sig .tc := ⟨.hbm, 92, rfl⟩
abbrev main_v66 : Ref sig .tc := ⟨.hbm, 93, rfl⟩
abbrev main_c_17 : Ref sig .tc := ⟨.hbm, 94, rfl⟩
abbrev main_v67 : Ref sig .tc := ⟨.hbm, 95, rfl⟩
abbrev main_v68 : Ref sig .tc := ⟨.hbm, 96, rfl⟩
abbrev main_c_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_20 : Ref sig .tc := ⟨.hbm, 107, rfl⟩
abbrev main_v77 : Ref sig .tc := ⟨.hbm, 108, rfl⟩
abbrev main_v78 : Ref sig .tc := ⟨.hbm, 109, rfl⟩
abbrev main_c_21 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_22 : Ref sig .tc := ⟨.hbm, 116, rfl⟩
abbrev main_v84 : Ref sig .tc := ⟨.hbm, 117, rfl⟩
abbrev main_v85 : Ref sig .tc := ⟨.hbm, 118, rfl⟩
abbrev main_c_23 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_24 : Ref sig .tc := ⟨.hbm, 126, rfl⟩
abbrev main_v92 : Ref sig .tc := ⟨.hbm, 127, rfl⟩
abbrev main_v93 : Ref sig .tc := ⟨.hbm, 128, rfl⟩
abbrev main_c_25 : Ref sig .tc := ⟨.hbm, 129, rfl⟩
abbrev main_v94 : Ref sig .tc := ⟨.hbm, 130, rfl⟩
abbrev main_v95 : Ref sig .tc := ⟨.hbm, 131, rfl⟩
abbrev main_c_26 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_27 : Ref sig .tc := ⟨.hbm, 140, rfl⟩
abbrev main_v103 : Ref sig .tc := ⟨.hbm, 141, rfl⟩
abbrev main_v104 : Ref sig .tc := ⟨.hbm, 142, rfl⟩
abbrev main_c_28 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_29 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_30 : Ref sig .tc := ⟨.hbm, 160, rfl⟩
abbrev main_v120 : Ref sig .tc := ⟨.hbm, 161, rfl⟩
abbrev main_cst_31 : Ref sig .tc := ⟨.hbm, 162, rfl⟩
abbrev main_v121 : Ref sig .tc := ⟨.hbm, 163, rfl⟩
abbrev main_c_32 : Ref sig .tc := ⟨.hbm, 164, rfl⟩
abbrev main_v122 : Ref sig .tc := ⟨.hbm, 165, rfl⟩
abbrev main_v123 : Ref sig .tc := ⟨.hbm, 166, rfl⟩
abbrev main_c_33 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_34 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_35 : Ref sig .tc := ⟨.hbm, 177, rfl⟩
abbrev main_v132 : Ref sig .tc := ⟨.hbm, 178, rfl⟩
abbrev main_v133 : Ref sig .tc := ⟨.hbm, 179, rfl⟩
abbrev main_c_36 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_c_37 : Ref sig .tc := ⟨.hbm, 186, rfl⟩
abbrev main_v139 : Ref sig .tc := ⟨.hbm, 187, rfl⟩
abbrev main_v140 : Ref sig .tc := ⟨.hbm, 188, rfl⟩
abbrev main_c_38 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_39 : Ref sig .tc := ⟨.hbm, 196, rfl⟩
abbrev main_v147 : Ref sig .tc := ⟨.hbm, 197, rfl⟩
abbrev main_v148 : Ref sig .tc := ⟨.hbm, 198, rfl⟩
abbrev main_c_40 : Ref sig .tc := ⟨.hbm, 199, rfl⟩
abbrev main_v149 : Ref sig .tc := ⟨.hbm, 200, rfl⟩
abbrev main_v150 : Ref sig .tc := ⟨.hbm, 201, rfl⟩
abbrev main_c_41 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_42 : Ref sig .tc := ⟨.hbm, 210, rfl⟩
abbrev main_v158 : Ref sig .tc := ⟨.hbm, 211, rfl⟩
abbrev main_v159 : Ref sig .tc := ⟨.hbm, 212, rfl⟩
abbrev main_c_43 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_44 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_45 : Ref sig .tc := ⟨.hbm, 229, rfl⟩
abbrev main_v174 : Ref sig .tc := ⟨.hbm, 230, rfl⟩
abbrev main_v175 : Ref sig .tc := ⟨.hbm, 231, rfl⟩
abbrev main_cst_46 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result named.

  The program is six kernel regions among four stretches of host operations.  The buffer contents at each boundary
  are a fold from the launch memory: a stretch applies its operations, a region leaves each of its arrays at what its
  write-backs fold to and every other buffer as entered.  Every weakly fair execution ends with each unscoped buffer
  at the last boundary's contents; in particular the result buffer holds the last boundary's contents there, and
  the eight arguments are as launched.
-/
import proofs.«133144_j16896401342682_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting; the result buffer ends at the last
    boundary's contents and each argument as launched. -/
theorem run_result : θ_run defs (onTc (τ := τ) (main (F := F))) ⟨m, fun _ => 0, ρ⟩ (fun r => ∀ c : Dev nD,
      r.2.mem ((c.tc : Thread nD τ).loc main_v102) = W10 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v102 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Whole

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«133144_j16896401342682_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«133144_j16896401342682_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.LibRowBlockOps.lean ====
/-
  Row blocks of the two elementwise epilogues of a graph-convolution layer, at the ideal values.

  A block of R consecutive rows of an [N, C] array is `rowBlk o h A` (rows o … o + R − 1).  Comparing, selecting,
  adding and multiplying act entry by entry, so each commutes with taking the block.  Adding a bias vector to every
  row of the block gives the block of the array with the bias added to every row; the leaky rectifier
  v ↦ (v ≥ z ? v : s · v) of the block is the block of the leaky rectifier of the array.
-/
import proofs.«133144_j16896401342682_1_alg».proof.Proof.LibBlockOfWhole

noncomputable section

namespace Cert.Gcn

open Idealize.ShloMosaic Idealize.ShloMosaic.ValueIdx Cert.Blocks Cert.Bridge

/-- The zero offsets of whole-buffer accesses of rank two and one. -/
theorem hz2 : (![0, 0] : Fin 2 → Nat) = fun _ => 0 := funext fun a => by fin_cases a <;> rfl
theorem hz1 : (![0] : Fin 1 → Nat) = fun _ => 0 := funext fun a => by fin_cases a; rfl

variable {R N C : Nat}

/-- An entrywise comparison of two blocks is the block of the comparison. -/
theorem cmpf_rowBlk {φ : FTy} (p : CmpFPredicate) (o : Nat) (h : o + R ≤ N) (A B : FVec Ideal ⟨2, ![N, C]⟩ φ) :
    cmpf p (rowBlk o h A) (rowBlk o h B) = rowBlk o h (cmpf p A B) := rfl

/-- An entrywise choice between two blocks by a block of flags is the block of the choice. -/
theorem select_rowBlk {α : Type} (o : Nat) (h : o + R ≤ N) (M : IVec ⟨2, ![N, C]⟩ 1)
    (A B : (⟨2, ![N, C]⟩ : Shape).Idx → α) :
    select (rowBlk o h M) (rowBlk o h A) (rowBlk o h B) = rowBlk o h (select M A B) := rfl

/-- The bias vector added to every row of a block is the block of the bias added to every row of the array. -/
theorem biasAdd_rowBlk (o : Nat) (h : o + R ≤ N) (Z : FVec Ideal ⟨2, ![N, C]⟩ .f32) (b : FVec Ideal ⟨1, ![C]⟩ .f32)
    (hs : (⟨2, ![R, C]⟩ : Shape).ShapeCasts ⟨2, ![R, C]⟩)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    addf (shapeCast ⟨2, ![R, C]⟩ (rowBlk o h Z) hs) (broadcastTo ⟨2, ![R, C]⟩ (shapeCast ⟨2, ![1, C]⟩ b h2) hb)
      = rowBlk o h (addf Z (broadcastInDim ⟨2, ![N, C]⟩ ![0, 1] hB (broadcastInDim ⟨2, ![1, C]⟩ ![1] hb' b))) := by
  rw [shapeCast_self, biasRow_rowBlk o h b h2 hb hb' hB, addf_rowBlk]

/-- The leaky rectifier of a block, v ↦ (v ≥ z ? v : s · v) with z and s splat constants, is the block of the leaky
    rectifier of the array. -/
theorem leaky_rowBlk (o : Nat) (h : o + R ≤ N) (V : FVec Ideal ⟨2, ![N, C]⟩ .f32) (z s : BitVec 32)
    (hZ : (⟨0, ![]⟩ : Shape).BroadcastsInDim ⟨2, ![N, C]⟩ ![]) :
    select (cmpf .oge (rowBlk o h V) (broadcast ⟨2, ![R, C]⟩ (Scalar.ofBits (F := Ideal) .f32 z)))
        (rowBlk o h V) (mulf (broadcast ⟨2, ![R, C]⟩ (Scalar.ofBits (F := Ideal) .f32 s)) (rowBlk o h V))
      = rowBlk o h (select (cmpf .oge V (broadcastInDim ⟨2, ![N, C]⟩ ![] hZ (constant (F := Ideal) ⟨0, ![]⟩ .f32 z)))
          V (mulf (broadcastInDim ⟨2, ![N, C]⟩ ![] hZ (constant (F := Ideal) ⟨0, ![]⟩ .f32 s)) V)) := by
  rw [splat_rowBlk o h z hZ, splat_rowBlk o h s hZ, cmpf_rowBlk, mulf_rowBlk, select_rowBlk]

end Cert.Gcn

end
-- ==== Proof.RegionProducts.lean ====
/-
  The three matrix-product regions, each read as one whole-array function.

  A product region walks ten grid points; at point t it loads rows 10000 t … 10000 t + 9999 of its input array and
  the whole 64 × 64 weight, narrows both to bf16 (the identity on the extended reals), multiplies them into a zero
  accumulator and stores the 10000 × 64 result as block t of its output array.  A row of a product depends only on
  the same row of the left factor, so the block is block t of the product of the whole arrays; the ten blocks tile
  the output, which therefore ends holding that product.
-/
import proofs.«133144_j16896401342682_1_alg».proof.Proof.Gen.KernelIdeal.Frame
import proofs.«133144_j16896401342682_1_alg».proof.Proof.LibRowBlockOps
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Blocks Cert.Gcn Cert.Bridge Cert.Lib.PlainDot

variable (V : (c : Dev nD) → (b : Ref sig .tc) → Buf (Elt Ideal) ((c : Thread nD τ).loc b))

/-- The product of an [100000, 64] array with a [64, 64] weight, as one host contraction. -/
abbrev wholeProduct (X : FVec Ideal S100000x64 .f32) (W : FVec Ideal S64x64 .f32) : FVec Ideal S100000x64 .f32 :=
  Host.dotGeneral (DotDims.plain 100000 64 64) none X W

/-! ## Region 0: a block of ten thousand rows of the product -/

/-- The printed index maps over the ten grid points: the row-blocked windows sit at block row t, the weight at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point t writes back is block t of the whole product of the region's two input arrays. -/
theorem flushed0 (c : Dev nD) (t : Fin cfg0.N) :
    (dat0 (F := Ideal) V c).flushed 2 t
      = ((cfg0.win 2).blk t).view.read (Elt Ideal) (wholeProduct (V c main_arg0) (V c main_arg1)) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S64x64) hz2]
  obtain ⟨e0, e1, e2, e3, e4, e5, e6⟩ := idx0 t
  have ho : t.val * 10000 + 10000 ≤ 100000 := by omega
  have hin : ∀ y : S10000x64.Idx, ((cfg0.win 0).blk t).view.emb y = shiftRow (R := 10000) (N := 100000) (C := 64) (t.val * 10000) ho y := by
    intro y; funext a; apply Fin.ext
    match a with
    | ⟨0, _⟩ => show win0_0.index t (0 : Fin 2) * 10000 + 1 * (y 0).val = t.val * 10000 + (y 0).val; omega
    | ⟨1, _⟩ => show win0_0.index t (1 : Fin 2) * 64 + 1 * (y 1).val = (y 1).val; omega
  have hw : ∀ y : S64x64.Idx, ((cfg0.win 1).blk t).view.emb y = y := by
    intro y; funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  have hout : ∀ y : S10000x64.Idx, ((cfg0.win 2).blk t).view.emb y = shiftRow (R := 10000) (N := 100000) (C := 64) (t.val * 10000) ho y := by
    intro y; funext a; apply Fin.ext
    match a with
    | ⟨0, _⟩ => show win0_2.index t (0 : Fin 2) * 10000 + 1 * (y 0).val = t.val * 10000 + (y 0).val; omega
    | ⟨1, _⟩ => show win0_2.index t (1 : Fin 2) * 64 + 1 * (y 1).val = (y 1).val; omega
  funext j
  show k0_pay1 (iblk0 V c 0 t) (iblk0 V c 1 t) j = wholeProduct (V c main_arg0) (V c main_arg1) (((cfg0.win 2).blk t).view.emb j)
  rw [hout j]
  exact dot_block (φ₁ := .bf16) (φ₂ := .bf16) dot_S10000x64_S64x64_S10000x64_1_0_0_1_n_n rfl (DotDims.plain 100000 64 64) rfl none none
    (V c main_arg0) (V c main_arg1)
    (truncf .bf16 (iblk0 V c 0 t) bitsLt_bf16_f32) (truncf .bf16 (iblk0 V c 1 t) bitsLt_bf16_f32)
    (shiftRow (t.val * 10000) ho) id (shiftRow (t.val * 10000) ho)
    (fun y => congrArg (V c main_arg0) (hin y))
    (fun y => congrArg (V c main_arg1) (hw y))
    (fun y k => shiftRow_rowIdx (t.val * 10000) ho y k) (fun y k => shiftRow_colIdx (t.val * 10000) ho y k) j

/-- An entry of the output array lies in point t's block exactly when its coordinates lie in the block's ranges. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- Row r of the output lies in the block of point r / 10000: the ten blocks tile the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  obtain ⟨e0, e1, e2, e3, e4, e5, e6⟩ := idx0 ⟨(i 0).val / 10000, by rw [hN]; omega⟩
  rw [mem_blk0]
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, _⟩ (1 : Fin 2) * 64 ≤ (i 1).val ∧ (i 1).val < win0_2.index ⟨(i 0).val / 10000, _⟩ (1 : Fin 2) * 64 + 64
    rw [e5]; omega

/-- After the region its output array holds the whole product of its two input arrays as the region found them. -/
theorem final0 (c : Dev nD) : (dat0 (F := Ideal) V c).arrAt 2 cfg0.N = wholeProduct (V c main_arg0) (V c main_arg1) :=
  (dat0 V c).arrAt_eq_of_cover 2 _ (fun t _ => flushed0 V c t) (cover0)

/-! ## Region 2: a block of ten thousand rows of the product -/

/-- The printed index maps over the ten grid points: the row-blocked windows sit at block row t, the weight at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- What point t writes back is block t of the whole product of the region's two input arrays. -/
theorem flushed2 (c : Dev nD) (t : Fin cfg2.N) :
    (dat2 (F := Ideal) V c).flushed 2 t
      = ((cfg2.win 2).blk t).view.read (Elt Ideal) (wholeProduct (V c main_v56) (V c main_arg3)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64x64) hz2]
  obtain ⟨e0, e1, e2, e3, e4, e5, e6⟩ := idx2 t
  have ho : t.val * 10000 + 10000 ≤ 100000 := by omega
  have hin : ∀ y : S10000x64.Idx, ((cfg2.win 0).blk t).view.emb y = shiftRow (R := 10000) (N := 100000) (C := 64) (t.val * 10000) ho y := by
    intro y; funext a; apply Fin.ext
    match a with
    | ⟨0, _⟩ => show win2_0.index t (0 : Fin 2) * 10000 + 1 * (y 0).val = t.val * 10000 + (y 0).val; omega
    | ⟨1, _⟩ => show win2_0.index t (1 : Fin 2) * 64 + 1 * (y 1).val = (y 1).val; omega
  have hw : ∀ y : S64x64.Idx, ((cfg2.win 1).blk t).view.emb y = y := by
    intro y; funext a; apply Fin.ext
    match a with
    | ⟨0, _⟩ => show win2_1.index t (0 : Fin 2) * 64 + 1 * (y 0).val = (y 0).val; omega
    | ⟨1, _⟩ => show win2_1.index t (1 : Fin 2) * 64 + 1 * (y 1).val = (y 1).val; omega
  have hout : ∀ y : S10000x64.Idx, ((cfg2.win 2).blk t).view.emb y = shiftRow (R := 10000) (N := 100000) (C := 64) (t.val * 10000) ho y := by
    intro y; funext a; apply Fin.ext
    match a with
    | ⟨0, _⟩ => show win2_2.index t (0 : Fin 2) * 10000 + 1 * (y 0).val = t.val * 10000 + (y 0).val; omega
    | ⟨1, _⟩ => show win2_2.index t (1 : Fin 2) * 64 + 1 * (y 1).val = (y 1).val; omega
  funext j
  show k2_pay1 (iblk2 V c 0 t) (iblk2 V c 1 t) j = wholeProduct (V c main_v56) (V c main_arg3) (((cfg2.win 2).blk t).view.emb j)
  rw [hout j]
  exact dot_block (φ₁ := .bf16) (φ₂ := .bf16) dot_S10000x64_S64x64_S10000x64_1_0_0_1_n_n rfl (DotDims.plain 100000 64 64) rfl none none
    (V c main_v56) (V c main_arg3)
    (truncf .bf16 (shapeCast S10000x64 (iblk2 V c 0 t) shapeCasts_S10000x64_S10000x64) bitsLt_bf16_f32) (truncf .bf16 (iblk2 V c 1 t) bitsLt_bf16_f32)
    (shiftRow (t.val * 10000) ho) id (shiftRow (t.val * 10000) ho)
    (fun y => (congrFun (shapeCast_self (iblk2 V c 0 t) shapeCasts_S10000x64_S10000x64) y).trans (congrArg (V c main_v56) (hin y)))
    (fun y => congrArg (V c main_arg3) (hw y))
    (fun y k => shiftRow_rowIdx (t.val * 10000) ho y k) (fun y k => shiftRow_colIdx (t.val * 10000) ho y k) j

/-- An entry of the output array lies in point t's block exactly when its coordinates lie in the block's ranges. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v57).slice (win2_2.rect t)).set ↔ _
  rw [View.set_slice_whole, Rect.mem_set_unit]
  exact Iff.rfl

/-- Row r of the output lies in the block of point r / 10000: the ten blocks tile the array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  obtain ⟨e0, e1, e2, e3, e4, e5, e6⟩ := idx2 ⟨(i 0).val / 10000, by rw [hN]; omega⟩
  rw [mem_blk2]
  intro a
  match a with
  | ⟨0, _⟩ =>
    show win2_2.index ⟨(i 0).val / 10000, _⟩ (0 : Fin 2) * 10000 ≤ (i 0).val ∧ (i 0).val < win2_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, _⟩ (1 : Fin 2) * 64 ≤ (i 1).val ∧ (i 1).val < win2_2.index ⟨(i 0).val / 10000, _⟩ (1 : Fin 2) * 64 + 64
    rw [e5]; omega

/-- After the region its output array holds the whole product of its two input arrays as the region found them. -/
theorem final2 (c : Dev nD) : (dat2 (F := Ideal) V c).arrAt 2 cfg2.N = wholeProduct (V c main_v56) (V c main_arg3) :=
  (dat2 V c).arrAt_eq_of_cover 2 _ (fun t _ => flushed2 V c t) (cover2)

/-! ## Region 4: a block of ten thousand rows of the product -/

/-- The printed index maps over the ten grid points: the row-blocked windows sit at block row t, the weight at the origin. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- What point t writes back is block t of the whole product of the region's two input arrays. -/
theorem flushed4 (c : Dev nD) (t : Fin cfg4.N) :
    (dat4 (F := Ideal) V c).flushed 2 t
      = ((cfg4.win 2).blk t).view.read (Elt Ideal) (wholeProduct (V c main_v79) (V c main_arg5)) := by
  show (cfg4.win 2).cut (grid4.coords t) ((dat4 V c).after 2 t) = _
  rw [after4_2]
  unfold out4_2
  rw [View.canon_unit_zero hz2]
  simp only [View.ld_unit_zero (S := S10000x64) hz2, View.ld_unit_zero (S := S64x64) hz2]
  obtain ⟨e0, e1, e2, e3, e4, e5, e6⟩ := idx4 t
  have ho : t.val * 10000 + 10000 ≤ 100000 := by omega
  have hin : ∀ y : S10000x64.Idx, ((cfg4.win 0).blk t).view.emb y = shiftRow (R := 10000) (N := 100000) (C := 64) (t.val * 10000) ho y := by
    intro y; funext a; apply Fin.ext
    match a with
    | ⟨0, _⟩ => show win4_0.index t (0 : Fin 2) * 10000 + 1 * (y 0).val = t.val * 10000 + (y 0).val; omega
    | ⟨1, _⟩ => show win4_0.index t (1 : Fin 2) * 64 + 1 * (y 1).val = (y 1).val; omega
  have hw : ∀ y : S64x64.Idx, ((cfg4.win 1).blk t).view.emb y = y := by
    intro y; funext a; apply Fin.ext
    match a with
    | ⟨0, _⟩ => show win4_1.index t (0 : Fin 2) * 64 + 1 * (y 0).val = (y 0).val; omega
    | ⟨1, _⟩ => show win4_1.index t (1 : Fin 2) * 64 + 1 * (y 1).val = (y 1).val; omega
  have hout : ∀ y : S10000x64.Idx, ((cfg4.win 2).blk t).view.emb y = shiftRow (R := 10000) (N := 100000) (C := 64) (t.val * 10000) ho y := by
    intro y; funext a; apply Fin.ext
    match a with
    | ⟨0, _⟩ => show win4_2.index t (0 : Fin 2) * 10000 + 1 * (y 0).val = t.val * 10000 + (y 0).val; omega
    | ⟨1, _⟩ => show win4_2.index t (1 : Fin 2) * 64 + 1 * (y 1).val = (y 1).val; omega
  funext j
  show k4_pay1 (iblk4 V c 0 t) (iblk4 V c 1 t) j = wholeProduct (V c main_v79) (V c main_arg5) (((cfg4.win 2).blk t).view.emb j)
  rw [hout j]
  exact dot_block (φ₁ := .bf16) (φ₂ := .bf16) dot_S10000x64_S64x64_S10000x64_1_0_0_1_n_n rfl (DotDims.plain 100000 64 64) rfl none none
    (V c main_v79) (V c main_arg5)
    (truncf .bf16 (shapeCast S10000x64 (iblk4 V c 0 t) shapeCasts_S10000x64_S10000x64) bitsLt_bf16_f32) (truncf .bf16 (iblk4 V c 1 t) bitsLt_bf16_f32)
    (shiftRow (t.val * 10000) ho) id (shiftRow (t.val * 10000) ho)
    (fun y => (congrFun (shapeCast_self (iblk4 V c 0 t) shapeCasts_S10000x64_S10000x64) y).trans (congrArg (V c main_v79) (hin y)))
    (fun y => congrArg (V c main_arg5) (hw y))
    (fun y k => shiftRow_rowIdx (t.val * 10000) ho y k) (fun y k => shiftRow_colIdx (t.val * 10000) ho y k) j

/-- An entry of the output array lies in point t's block exactly when its coordinates lie in the block's ranges. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v80).slice (win4_2.rect t)).set ↔ _
  rw [View.set_slice_whole, Rect.mem_set_unit]
  exact Iff.rfl

/-- Row r of the output lies in the block of point r / 10000: the ten blocks tile the array. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_2 _, ?_⟩
  obtain ⟨e0, e1, e2, e3, e4, e5, e6⟩ := idx4 ⟨(i 0).val / 10000, by rw [hN]; omega⟩
  rw [mem_blk4]
  intro a
  match a with
  | ⟨0, _⟩ =>
    show win4_2.index ⟨(i 0).val / 10000, _⟩ (0 : Fin 2) * 10000 ≤ (i 0).val ∧ (i 0).val < win4_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, _⟩ (1 : Fin 2) * 64 ≤ (i 1).val ∧ (i 1).val < win4_2.index ⟨(i 0).val / 10000, _⟩ (1 : Fin 2) * 64 + 64
    rw [e5]; omega

/-- After the region its output array holds the whole product of its two input arrays as the region found them. -/
theorem final4 (c : Dev nD) : (dat4 (F := Ideal) V c).arrAt 2 cfg4.N = wholeProduct (V c main_v79) (V c main_arg5) :=
  (dat4 V c).arrAt_eq_of_cover 2 _ (fun t _ => flushed4 V c t) (cover4)

end Cert.KernelIdeal.Whole

end
-- ==== Proof.RegionEpilogues.lean ====
/-
  The three epilogue regions, each read as one whole-array function.

  An epilogue region walks ten grid points; at point t it loads rows 10000 t … 10000 t + 9999 of its input array and
  the whole bias vector, adds the bias to every row, applies (in the first and the last layer) the leaky rectifier
  entry by entry, and stores the result as block t of its output array.  Each entry of the result depends only on
  the same entry of the input and one entry of the bias, so the block is block t of the epilogue of the whole array;
  the ten blocks tile the output, which therefore ends holding that epilogue.
-/
import proofs.«133144_j16896401342682_1_alg».proof.Proof.Gen.KernelIdeal.Frame
import proofs.«133144_j16896401342682_1_alg».proof.Proof.LibRowBlockOps
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Blocks Cert.Gcn Cert.Bridge Cert.Lib.PlainDot

variable (V : (c : Dev nD) → (b : Ref sig .tc) → Buf (Elt Ideal) ((c : Thread nD τ).loc b))

/-- A bias vector as one row, and that row stretched down the hundred thousand rows; a splat over the whole array. -/
theorem hRow : S64.BroadcastsInDim S1x64 (![1] : Fin 1 → Fin S1x64.rank) := by decide
theorem hDown : S1x64.BroadcastsInDim S100000x64 (![0, 1] : Fin 2 → Fin S100000x64.rank) := by decide
theorem hSplat : S_.BroadcastsInDim S100000x64 (![] : Fin 0 → Fin S100000x64.rank) := by decide

/-- The bias vector added to every row of the array. -/
abbrev biasRows (Z : FVec Ideal S100000x64 .f32) (b : FVec Ideal S64 .f32) : FVec Ideal S100000x64 .f32 :=
  addf Z (broadcastInDim S100000x64 ![0, 1] hDown (broadcastInDim S1x64 ![1] hRow b))

/-- The leaky rectifier of the array: v where v ≥ 0, the slope constant times v elsewhere. -/
abbrev leakyRows (A : FVec Ideal S100000x64 .f32) : FVec Ideal S100000x64 .f32 :=
  select (cmpf .oge A (broadcastInDim S100000x64 ![] hSplat (constant (F := Ideal) S_ .f32 0x00000000#32)))
    A (mulf (broadcastInDim S100000x64 ![] hSplat (constant (F := Ideal) S_ .f32 0x3C23D70A#32)) A)

/-- The bias epilogue on a block of rows is the block of the bias epilogue. -/
theorem bias_block (o : Nat) (ho : o + 10000 ≤ 100000) (Z : FVec Ideal S100000x64 .f32) (b : FVec Ideal S64 .f32)
    (zb : Vec Ideal S10000x64 .f32) (bb : Vec Ideal S64 .f32) (hz : zb = rowBlk o ho Z) (hb : bb = b) :
    k3_pay1 zb bb = rowBlk o ho (biasRows Z b) := by
  subst hz hb
  unfold k3_pay1
  dsimp only
  exact biasAdd_rowBlk o ho Z bb shapeCasts_S10000x64_S10000x64 shapeCasts_S64_S1x64 broadcasts_S1x64_S10000x64 hRow hDown

/-- The bias-and-rectifier epilogue on a block of rows is the block of that epilogue. -/
theorem biasLeaky_block1 (o : Nat) (ho : o + 10000 ≤ 100000) (Z : FVec Ideal S100000x64 .f32) (b : FVec Ideal S64 .f32)
    (zb : Vec Ideal S10000x64 .f32) (bb : Vec Ideal S64 .f32) (hz : zb = rowBlk o ho Z) (hb : bb = b) :
    k1_pay1 zb bb = rowBlk o ho (leakyRows (biasRows Z b)) := by
  subst hz hb
  unfold k1_pay1
  dsimp only
  rw [biasAdd_rowBlk o ho Z bb shapeCasts_S10000x64_S10000x64 shapeCasts_S64_S1x64 broadcasts_S1x64_S10000x64 hRow hDown]
  exact leaky_rowBlk o ho _ 0x00000000#32 0x3C23D70A#32 hSplat

theorem biasLeaky_block5 (o : Nat) (ho : o + 10000 ≤ 100000) (Z : FVec Ideal S100000x64 .f32) (b : FVec Ideal S64 .f32)
    (zb : Vec Ideal S10000x64 .f32) (bb : Vec Ideal S64 .f32) (hz : zb = rowBlk o ho Z) (hb : bb = b) :
    k5_pay1 zb bb = rowBlk o ho (leakyRows (biasRows Z b)) := by
  subst hz hb
  unfold k5_pay1
  dsimp only
  rw [biasAdd_rowBlk o ho Z bb shapeCasts_S10000x64_S10000x64 shapeCasts_S64_S1x64 broadcasts_S1x64_S10000x64 hRow hDown]
  exact leaky_rowBlk o ho _ 0x00000000#32 0x3C23D70A#32 hSplat

/-! ## Region 1 -/

/-- The printed index maps over the ten grid points: the row-blocked windows sit at block row t, the bias at the origin. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 ∧ t.val < 10 :=
  (by decide +kernel : ∀ t : Fin grid1.N, _)

/-- What point t writes back is block t of the epilogue of the region's whole input array. -/
theorem flushed1 (c : Dev nD) (t : Fin cfg1.N) :
    (dat1 (F := Ideal) V c).flushed 2 t
      = ((cfg1.win 2).blk t).view.read (Elt Ideal) (leakyRows (biasRows (V c main_v55) (V c main_arg2))) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S64) hz1]
  obtain ⟨e0, e1, e2, e4, e5, e6⟩ := idx1 t
  have ho : t.val * 10000 + 10000 ≤ 100000 := by omega
  have hin : ∀ y : S10000x64.Idx, ((cfg1.win 0).blk t).view.emb y = shiftRow (R := 10000) (N := 100000) (C := 64) (t.val * 10000) ho y := by
    intro y; funext a; apply Fin.ext
    match a with
    | ⟨0, _⟩ => show win1_0.index t (0 : Fin 2) * 10000 + 1 * (y 0).val = t.val * 10000 + (y 0).val; omega
    | ⟨1, _⟩ => show win1_0.index t (1 : Fin 2) * 64 + 1 * (y 1).val = (y 1).val; omega
  have hbv : ∀ y : S64.Idx, ((cfg1.win 1).blk t).view.emb y = y := by
    intro y; funext a; apply Fin.ext
    match a with
    | ⟨0, _⟩ => show win1_1.index t (0 : Fin 1) * 64 + 1 * (y 0).val = (y 0).val; omega
  have hout : ∀ y : S10000x64.Idx, ((cfg1.win 2).blk t).view.emb y = shiftRow (R := 10000) (N := 100000) (C := 64) (t.val * 10000) ho y := by
    intro y; funext a; apply Fin.ext
    match a with
    | ⟨0, _⟩ => show win1_2.index t (0 : Fin 2) * 10000 + 1 * (y 0).val = t.val * 10000 + (y 0).val; omega
    | ⟨1, _⟩ => show win1_2.index t (1 : Fin 2) * 64 + 1 * (y 1).val = (y 1).val; omega
  have hblk : k1_pay1 (iblk1 V c 0 t) (iblk1 V c 1 t) = rowBlk (t.val * 10000) ho (leakyRows (biasRows (V c main_v55) (V c main_arg2))) :=
    biasLeaky_block1 (t.val * 10000) ho (V c main_v55) (V c main_arg2) (iblk1 V c 0 t) (iblk1 V c 1 t)
      (funext fun y => congrArg (V c main_v55) (hin y)) (funext fun y => congrArg (V c main_arg2) (hbv y))
  funext j
  show k1_pay1 (iblk1 V c 0 t) (iblk1 V c 1 t) j = leakyRows (biasRows (V c main_v55) (V c main_arg2)) (((cfg1.win 2).blk t).view.emb j)
  rw [hout j, hblk]
  rfl

/-- An entry of the output array lies in point t's block exactly when its coordinates lie in the block's ranges. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v56).slice (win1_2.rect t)).set ↔ _
  rw [View.set_slice_whole, Rect.mem_set_unit]
  exact Iff.rfl

/-- Row r of the output lies in the block of point r / 10000: the ten blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  obtain ⟨e0, e1, e2, e4, e5, e6⟩ := idx1 ⟨(i 0).val / 10000, by rw [hN]; omega⟩
  rw [mem_blk1]
  intro a
  match a with
  | ⟨0, _⟩ =>
    show win1_2.index ⟨(i 0).val / 10000, _⟩ (0 : Fin 2) * 10000 ≤ (i 0).val ∧ (i 0).val < win1_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, _⟩ (1 : Fin 2) * 64 ≤ (i 1).val ∧ (i 1).val < win1_2.index ⟨(i 0).val / 10000, _⟩ (1 : Fin 2) * 64 + 64
    rw [e5]; omega

/-- After the region its output array holds the epilogue of its whole input array as the region found it. -/
theorem final1 (c : Dev nD) : (dat1 (F := Ideal) V c).arrAt 2 cfg1.N = leakyRows (biasRows (V c main_v55) (V c main_arg2)) :=
  (dat1 V c).arrAt_eq_of_cover 2 _ (fun t _ => flushed1 V c t) (cover1)

/-! ## Region 3 -/

/-- The printed index maps over the ten grid points: the row-blocked windows sit at block row t, the bias at the origin. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 ∧ t.val < 10 :=
  (by decide +kernel : ∀ t : Fin grid3.N, _)

/-- What point t writes back is block t of the epilogue of the region's whole input array. -/
theorem flushed3 (c : Dev nD) (t : Fin cfg3.N) :
    (dat3 (F := Ideal) V c).flushed 2 t
      = ((cfg3.win 2).blk t).view.read (Elt Ideal) (biasRows (V c main_v78) (V c main_arg4)) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64) hz1]
  obtain ⟨e0, e1, e2, e4, e5, e6⟩ := idx3 t
  have ho : t.val * 10000 + 10000 ≤ 100000 := by omega
  have hin : ∀ y : S10000x64.Idx, ((cfg3.win 0).blk t).view.emb y = shiftRow (R := 10000) (N := 100000) (C := 64) (t.val * 10000) ho y := by
    intro y; funext a; apply Fin.ext
    match a with
    | ⟨0, _⟩ => show win3_0.index t (0 : Fin 2) * 10000 + 1 * (y 0).val = t.val * 10000 + (y 0).val; omega
    | ⟨1, _⟩ => show win3_0.index t (1 : Fin 2) * 64 + 1 * (y 1).val = (y 1).val; omega
  have hbv : ∀ y : S64.Idx, ((cfg3.win 1).blk t).view.emb y = y := by
    intro y; funext a; apply Fin.ext
    match a with
    | ⟨0, _⟩ => show win3_1.index t (0 : Fin 1) * 64 + 1 * (y 0).val = (y 0).val; omega
  have hout : ∀ y : S10000x64.Idx, ((cfg3.win 2).blk t).view.emb y = shiftRow (R := 10000) (N := 100000) (C := 64) (t.val * 10000) ho y := by
    intro y; funext a; apply Fin.ext
    match a with
    | ⟨0, _⟩ => show win3_2.index t (0 : Fin 2) * 10000 + 1 * (y 0).val = t.val * 10000 + (y 0).val; omega
    | ⟨1, _⟩ => show win3_2.index t (1 : Fin 2) * 64 + 1 * (y 1).val = (y 1).val; omega
  have hblk : k3_pay1 (iblk3 V c 0 t) (iblk3 V c 1 t) = rowBlk (t.val * 10000) ho (biasRows (V c main_v78) (V c main_arg4)) :=
    bias_block (t.val * 10000) ho (V c main_v78) (V c main_arg4) (iblk3 V c 0 t) (iblk3 V c 1 t)
      (funext fun y => congrArg (V c main_v78) (hin y)) (funext fun y => congrArg (V c main_arg4) (hbv y))
  funext j
  show k3_pay1 (iblk3 V c 0 t) (iblk3 V c 1 t) j = biasRows (V c main_v78) (V c main_arg4) (((cfg3.win 2).blk t).view.emb j)
  rw [hout j, hblk]
  rfl

/-- An entry of the output array lies in point t's block exactly when its coordinates lie in the block's ranges. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v79).slice (win3_2.rect t)).set ↔ _
  rw [View.set_slice_whole, Rect.mem_set_unit]
  exact Iff.rfl

/-- Row r of the output lies in the block of point r / 10000: the ten blocks tile the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_2 _, ?_⟩
  obtain ⟨e0, e1, e2, e4, e5, e6⟩ := idx3 ⟨(i 0).val / 10000, by rw [hN]; omega⟩
  rw [mem_blk3]
  intro a
  match a with
  | ⟨0, _⟩ =>
    show win3_2.index ⟨(i 0).val / 10000, _⟩ (0 : Fin 2) * 10000 ≤ (i 0).val ∧ (i 0).val < win3_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, _⟩ (1 : Fin 2) * 64 ≤ (i 1).val ∧ (i 1).val < win3_2.index ⟨(i 0).val / 10000, _⟩ (1 : Fin 2) * 64 + 64
    rw [e5]; omega

/-- After the region its output array holds the epilogue of its whole input array as the region found it. -/
theorem final3 (c : Dev nD) : (dat3 (F := Ideal) V c).arrAt 2 cfg3.N = biasRows (V c main_v78) (V c main_arg4) :=
  (dat3 V c).arrAt_eq_of_cover 2 _ (fun t _ => flushed3 V c t) (cover3)

/-! ## Region 5 -/

/-- The printed index maps over the ten grid points: the row-blocked windows sit at block row t, the bias at the origin. -/
theorem idx5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 ∧ t.val < 10 :=
  (by decide +kernel : ∀ t : Fin grid5.N, _)

/-- What point t writes back is block t of the epilogue of the region's whole input array. -/
theorem flushed5 (c : Dev nD) (t : Fin cfg5.N) :
    (dat5 (F := Ideal) V c).flushed 2 t
      = ((cfg5.win 2).blk t).view.read (Elt Ideal) (leakyRows (biasRows (V c main_v101) (V c main_arg6))) := by
  show (cfg5.win 2).cut (grid5.coords t) ((dat5 V c).after 2 t) = _
  rw [after5_2]
  unfold out5_2
  rw [View.canon_unit_zero hz2]
  simp only [View.ld_unit_zero (S := S10000x64) hz2, View.ld_unit_zero (S := S64) hz1]
  obtain ⟨e0, e1, e2, e4, e5, e6⟩ := idx5 t
  have ho : t.val * 10000 + 10000 ≤ 100000 := by omega
  have hin : ∀ y : S10000x64.Idx, ((cfg5.win 0).blk t).view.emb y = shiftRow (R := 10000) (N := 100000) (C := 64) (t.val * 10000) ho y := by
    intro y; funext a; apply Fin.ext
    match a with
    | ⟨0, _⟩ => show win5_0.index t (0 : Fin 2) * 10000 + 1 * (y 0).val = t.val * 10000 + (y 0).val; omega
    | ⟨1, _⟩ => show win5_0.index t (1 : Fin 2) * 64 + 1 * (y 1).val = (y 1).val; omega
  have hbv : ∀ y : S64.Idx, ((cfg5.win 1).blk t).view.emb y = y := by
    intro y; funext a; apply Fin.ext
    match a with
    | ⟨0, _⟩ => show win5_1.index t (0 : Fin 1) * 64 + 1 * (y 0).val = (y 0).val; omega
  have hout : ∀ y : S10000x64.Idx, ((cfg5.win 2).blk t).view.emb y = shiftRow (R := 10000) (N := 100000) (C := 64) (t.val * 10000) ho y := by
    intro y; funext a; apply Fin.ext
    match a with
    | ⟨0, _⟩ => show win5_2.index t (0 : Fin 2) * 10000 + 1 * (y 0).val = t.val * 10000 + (y 0).val; omega
    | ⟨1, _⟩ => show win5_2.index t (1 : Fin 2) * 64 + 1 * (y 1).val = (y 1).val; omega
  have hblk : k5_pay1 (iblk5 V c 0 t) (iblk5 V c 1 t) = rowBlk (t.val * 10000) ho (leakyRows (biasRows (V c main_v101) (V c main_arg6))) :=
    biasLeaky_block5 (t.val * 10000) ho (V c main_v101) (V c main_arg6) (iblk5 V c 0 t) (iblk5 V c 1 t)
      (funext fun y => congrArg (V c main_v101) (hin y)) (funext fun y => congrArg (V c main_arg6) (hbv y))
  funext j
  show k5_pay1 (iblk5 V c 0 t) (iblk5 V c 1 t) j = leakyRows (biasRows (V c main_v101) (V c main_arg6)) (((cfg5.win 2).blk t).view.emb j)
  rw [hout j, hblk]
  rfl

/-- An entry of the output array lies in point t's block exactly when its coordinates lie in the block's ranges. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v102).slice (win5_2.rect t)).set ↔ _
  rw [View.set_slice_whole, Rect.mem_set_unit]
  exact Iff.rfl

/-- Row r of the output lies in the block of point r / 10000: the ten blocks tile the array. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  refine ⟨⟨(i 0).val / 10000, by rw [hN]; omega⟩, flush5_2 _, ?_⟩
  obtain ⟨e0, e1, e2, e4, e5, e6⟩ := idx5 ⟨(i 0).val / 10000, by rw [hN]; omega⟩
  rw [mem_blk5]
  intro a
  match a with
  | ⟨0, _⟩ =>
    show win5_2.index ⟨(i 0).val / 10000, _⟩ (0 : Fin 2) * 10000 ≤ (i 0).val ∧ (i 0).val < win5_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, _⟩ (1 : Fin 2) * 64 ≤ (i 1).val ∧ (i 1).val < win5_2.index ⟨(i 0).val / 10000, _⟩ (1 : Fin 2) * 64 + 64
    rw [e5]; omega

/-- After the region its output array holds the epilogue of its whole input array as the region found it. -/
theorem final5 (c : Dev nD) : (dat5 (F := Ideal) V c).arrAt 2 cfg5.N = leakyRows (biasRows (V c main_v101) (V c main_arg6)) :=
  (dat5 V c).arrAt_eq_of_cover 2 _ (fun t _ => flushed5 V c t) (cover5)

end Cert.KernelIdeal.Whole

end
-- ==== Proof.Boundaries.lean ====
/-
  The buffer contents at the boundaries between the program's host stretches and kernel regions.

  A host stretch applies its operations to whatever valuation it is entered from; a buffer none of its operations
  writes is kept.  The first stretch computes, from the edge list alone, the source and target index words, the
  per-edge weight rsqrt(deg[src]) · rsqrt(deg[dst]) and the per-node factor 1 / deg as a column; each later stretch
  computes one layer's aggregation — gather the rows of the layer's product at the sources, scale by the per-edge
  weight, scatter-add at the targets, add the product scaled by the per-node factor — from the product the region
  before it left and those four arrays.  Each is stated against the matching stage of the reference program, which
  performs the same operations on the same values.
-/
import proofs.«133144_j16896401342682_1_alg».proof.Proof.Gen.KernelIdeal.Frame
import proofs.«133144_j16896401342682_1_alg».proof.Proof.Gen.ReferenceIdeal.Read

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-! ## One host stretch, from any valuation -/

section Stretch

variable (W : Valuation τ sig (Elt F))

theorem host0_keep_main_arg0 : StableHlo.after (hostOps0 (F := F)) W (Proc.devRef .tc main_arg0) = W (Proc.devRef .tc main_arg0) := by after_results_simp
theorem host0_keep_main_arg1 : StableHlo.after (hostOps0 (F := F)) W (Proc.devRef .tc main_arg1) = W (Proc.devRef .tc main_arg1) := by after_results_simp
theorem host0_keep_main_arg2 : StableHlo.after (hostOps0 (F := F)) W (Proc.devRef .tc main_arg2) = W (Proc.devRef .tc main_arg2) := by after_results_simp
theorem host0_keep_main_arg3 : StableHlo.after (hostOps0 (F := F)) W (Proc.devRef .tc main_arg3) = W (Proc.devRef .tc main_arg3) := by after_results_simp
theorem host0_keep_main_arg4 : StableHlo.after (hostOps0 (F := F)) W (Proc.devRef .tc main_arg4) = W (Proc.devRef .tc main_arg4) := by after_results_simp
theorem host0_keep_main_arg5 : StableHlo.after (hostOps0 (F := F)) W (Proc.devRef .tc main_arg5) = W (Proc.devRef .tc main_arg5) := by after_results_simp
theorem host0_keep_main_arg6 : StableHlo.after (hostOps0 (F := F)) W (Proc.devRef .tc main_arg6) = W (Proc.devRef .tc main_arg6) := by after_results_simp
theorem host1_keep_main_arg2 : StableHlo.after (hostOps1 (F := F)) W (Proc.devRef .tc main_arg2) = W (Proc.devRef .tc main_arg2) := by after_results_simp
theorem host1_keep_main_arg3 : StableHlo.after (hostOps1 (F := F)) W (Proc.devRef .tc main_arg3) = W (Proc.devRef .tc main_arg3) := by after_results_simp
theorem host1_keep_main_arg4 : StableHlo.after (hostOps1 (F := F)) W (Proc.devRef .tc main_arg4) = W (Proc.devRef .tc main_arg4) := by after_results_simp
theorem host1_keep_main_arg5 : StableHlo.after (hostOps1 (F := F)) W (Proc.devRef .tc main_arg5) = W (Proc.devRef .tc main_arg5) := by after_results_simp
theorem host1_keep_main_arg6 : StableHlo.after (hostOps1 (F := F)) W (Proc.devRef .tc main_arg6) = W (Proc.devRef .tc main_arg6) := by after_results_simp
theorem host1_keep_main_v1 : StableHlo.after (hostOps1 (F := F)) W (Proc.devRef .tc main_v1) = W (Proc.devRef .tc main_v1) := by after_results_simp
theorem host1_keep_main_v3 : StableHlo.after (hostOps1 (F := F)) W (Proc.devRef .tc main_v3) = W (Proc.devRef .tc main_v3) := by after_results_simp
theorem host1_keep_main_v30 : StableHlo.after (hostOps1 (F := F)) W (Proc.devRef .tc main_v30) = W (Proc.devRef .tc main_v30) := by after_results_simp
theorem host1_keep_main_v33 : StableHlo.after (hostOps1 (F := F)) W (Proc.devRef .tc main_v33) = W (Proc.devRef .tc main_v33) := by after_results_simp
theorem host3_keep_main_arg4 : StableHlo.after (hostOps3 (F := F)) W (Proc.devRef .tc main_arg4) = W (Proc.devRef .tc main_arg4) := by after_results_simp
theorem host3_keep_main_arg5 : StableHlo.after (hostOps3 (F := F)) W (Proc.devRef .tc main_arg5) = W (Proc.devRef .tc main_arg5) := by after_results_simp
theorem host3_keep_main_arg6 : StableHlo.after (hostOps3 (F := F)) W (Proc.devRef .tc main_arg6) = W (Proc.devRef .tc main_arg6) := by after_results_simp
theorem host3_keep_main_v1 : StableHlo.after (hostOps3 (F := F)) W (Proc.devRef .tc main_v1) = W (Proc.devRef .tc main_v1) := by after_results_simp
theorem host3_keep_main_v3 : StableHlo.after (hostOps3 (F := F)) W (Proc.devRef .tc main_v3) = W (Proc.devRef .tc main_v3) := by after_results_simp
theorem host3_keep_main_v30 : StableHlo.after (hostOps3 (F := F)) W (Proc.devRef .tc main_v30) = W (Proc.devRef .tc main_v30) := by after_results_simp
theorem host3_keep_main_v33 : StableHlo.after (hostOps3 (F := F)) W (Proc.devRef .tc main_v33) = W (Proc.devRef .tc main_v33) := by after_results_simp
theorem host5_keep_main_arg6 : StableHlo.after (hostOps5 (F := F)) W (Proc.devRef .tc main_arg6) = W (Proc.devRef .tc main_arg6) := by after_results_simp

/-- The first stretch: the index words, the per-edge weight and the per-node factor, from the edge list. -/
theorem host0_main_v1 (x7 : (⟨S2x1600000, .i32⟩ : BufTy).Contents (Elt F)) (h7 : W (Proc.devRef .tc main_arg7) = x7) :
    StableHlo.after (hostOps0 (F := F)) W (Proc.devRef .tc main_v1) = Cert.ReferenceIdeal.Read.val_main_v1 (F := F) x7 := by
  subst h7; after_results_simp; rfl
theorem host0_main_v3 (x7 : (⟨S2x1600000, .i32⟩ : BufTy).Contents (Elt F)) (h7 : W (Proc.devRef .tc main_arg7) = x7) :
    StableHlo.after (hostOps0 (F := F)) W (Proc.devRef .tc main_v3) = Cert.ReferenceIdeal.Read.val_main_v3 (F := F) x7 := by
  subst h7; after_results_simp; rfl
theorem host0_main_v30 (x7 : (⟨S2x1600000, .i32⟩ : BufTy).Contents (Elt F)) (h7 : W (Proc.devRef .tc main_arg7) = x7) :
    StableHlo.after (hostOps0 (F := F)) W (Proc.devRef .tc main_v30) = Cert.ReferenceIdeal.Read.val_main_v31 (F := F) x7 := by
  subst h7; after_results_simp; rfl
theorem host0_main_v33 (x7 : (⟨S2x1600000, .i32⟩ : BufTy).Contents (Elt F)) (h7 : W (Proc.devRef .tc main_arg7) = x7) :
    StableHlo.after (hostOps0 (F := F)) W (Proc.devRef .tc main_v33) = Cert.ReferenceIdeal.Read.val_main_v52 (F := F) x7 := by
  subst h7; after_results_simp; rfl

/-- One layer's aggregation, from the product the region before it left. -/
theorem host1_agg (x0 : (⟨S100000x64, .f32⟩ : BufTy).Contents (Elt F)) (x1 : (⟨S64x64, .f32⟩ : BufTy).Contents (Elt F)) (x7 : (⟨S2x1600000, .i32⟩ : BufTy).Contents (Elt F))
    (hh : W (Proc.devRef .tc main_v34) = Cert.ReferenceIdeal.Read.val_main_v4 (F := F) x0 x1)
    (h1 : W (Proc.devRef .tc main_v1) = Cert.ReferenceIdeal.Read.val_main_v1 (F := F) x7)
    (h3 : W (Proc.devRef .tc main_v3) = Cert.ReferenceIdeal.Read.val_main_v3 (F := F) x7)
    (h30 : W (Proc.devRef .tc main_v30) = Cert.ReferenceIdeal.Read.val_main_v31 (F := F) x7)
    (h33 : W (Proc.devRef .tc main_v33) = Cert.ReferenceIdeal.Read.val_main_v52 (F := F) x7) :
    StableHlo.after (hostOps1 (F := F)) W (Proc.devRef .tc main_v55) = Cert.ReferenceIdeal.Read.val_main_v55 (F := F) x0 x1 x7 := by
  after_results_simp
  rw [hh, h1, h3, h30, h33]
  rfl

/-- One layer's aggregation, from the product the region before it left. -/
theorem host3_agg (x0 : (⟨S100000x64, .f32⟩ : BufTy).Contents (Elt F)) (x1 : (⟨S64x64, .f32⟩ : BufTy).Contents (Elt F)) (x2 : (⟨S64, .f32⟩ : BufTy).Contents (Elt F)) (x3 : (⟨S64x64, .f32⟩ : BufTy).Contents (Elt F)) (x7 : (⟨S2x1600000, .i32⟩ : BufTy).Contents (Elt F))
    (hh : W (Proc.devRef .tc main_v57) = Cert.ReferenceIdeal.Read.val_main_v64 (F := F) x0 x1 x2 x3 x7)
    (h1 : W (Proc.devRef .tc main_v1) = Cert.ReferenceIdeal.Read.val_main_v1 (F := F) x7)
    (h3 : W (Proc.devRef .tc main_v3) = Cert.ReferenceIdeal.Read.val_main_v3 (F := F) x7)
    (h30 : W (Proc.devRef .tc main_v30) = Cert.ReferenceIdeal.Read.val_main_v31 (F := F) x7)
    (h33 : W (Proc.devRef .tc main_v33) = Cert.ReferenceIdeal.Read.val_main_v52 (F := F) x7) :
    StableHlo.after (hostOps3 (F := F)) W (Proc.devRef .tc main_v78) = Cert.ReferenceIdeal.Read.val_main_v115 (F := F) x0 x1 x2 x3 x7 := by
  after_results_simp
  rw [hh, h1, h3, h30, h33]
  rfl

/-- One layer's aggregation, from the product the region before it left. -/
theorem host5_agg (x0 : (⟨S100000x64, .f32⟩ : BufTy).Contents (Elt F)) (x1 : (⟨S64x64, .f32⟩ : BufTy).Contents (Elt F)) (x2 : (⟨S64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x7 : (⟨S2x1600000, .i32⟩ : BufTy).Contents (Elt F))
    (hh : W (Proc.devRef .tc main_v80) = Cert.ReferenceIdeal.Read.val_main_v119 (F := F) x0 x1 x2 x3 x4 x5 x7)
    (h1 : W (Proc.devRef .tc main_v1) = Cert.ReferenceIdeal.Read.val_main_v1 (F := F) x7)
    (h3 : W (Proc.devRef .tc main_v3) = Cert.ReferenceIdeal.Read.val_main_v3 (F := F) x7)
    (h30 : W (Proc.devRef .tc main_v30) = Cert.ReferenceIdeal.Read.val_main_v31 (F := F) x7)
    (h33 : W (Proc.devRef .tc main_v33) = Cert.ReferenceIdeal.Read.val_main_v52 (F := F) x7) :
    StableHlo.after (hostOps5 (F := F)) W (Proc.devRef .tc main_v101) = Cert.ReferenceIdeal.Read.val_main_v170 (F := F) x0 x1 x2 x3 x4 x5 x7 := by
  after_results_simp
  rw [hh, h1, h3, h30, h33]
  rfl

end Stretch

end Cert.KernelIdeal.Whole

end
-- ==== Proof.Stages.lean ====
/-
  The idealized kernel's result as the reference's last stage.

  Boundary by boundary through the program, each buffer a later step reads holds a stage of the reference program
  evaluated at the launch contents of the arguments: the first stretch leaves the index words, the per-edge weight and
  the per-node factor; a product region leaves the whole product of what it read; an aggregation stretch leaves the
  layer's aggregation; an epilogue region leaves the bias (and leaky rectifier) epilogue.  Buffers written once are
  carried unchanged past the steps that do not write them.  At the last boundary the result buffer holds the
  reference's final stage.
-/
import proofs.«133144_j16896401342682_1_alg».proof.Proof.KernelRun
import proofs.«133144_j16896401342682_1_alg».proof.Proof.RegionProducts
import proofs.«133144_j16896401342682_1_alg».proof.Proof.RegionEpilogues
import proofs.«133144_j16896401342682_1_alg».proof.Proof.Boundaries

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Arguments and the four edge arrays, carried to where they are read -/

theorem at1_main_arg0 : W1 m ρ c (Proc.devRef .tc main_arg0) = m ((c : Thread nD τ).loc main_arg0) :=
  ((host0_keep_main_arg0 (W0 m ρ c)).trans rfl)
theorem at1_main_arg1 : W1 m ρ c (Proc.devRef .tc main_arg1) = m ((c : Thread nD τ).loc main_arg1) :=
  ((host0_keep_main_arg1 (W0 m ρ c)).trans rfl)
theorem at3_main_arg2 : W3 m ρ c (Proc.devRef .tc main_arg2) = m ((c : Thread nD τ).loc main_arg2) :=
  ((host1_keep_main_arg2 (W2 m ρ c)).trans ((W2_of_ne m ρ c main_arg2 (by decide)).trans ((host0_keep_main_arg2 (W0 m ρ c)).trans rfl)))
theorem at4_main_arg3 : W4 m ρ c (Proc.devRef .tc main_arg3) = m ((c : Thread nD τ).loc main_arg3) :=
  ((W4_of_ne m ρ c main_arg3 (by decide)).trans ((host1_keep_main_arg3 (W2 m ρ c)).trans ((W2_of_ne m ρ c main_arg3 (by decide)).trans ((host0_keep_main_arg3 (W0 m ρ c)).trans rfl))))
theorem at6_main_arg4 : W6 m ρ c (Proc.devRef .tc main_arg4) = m ((c : Thread nD τ).loc main_arg4) :=
  ((host3_keep_main_arg4 (W5 m ρ c)).trans ((W5_of_ne m ρ c main_arg4 (by decide)).trans ((W4_of_ne m ρ c main_arg4 (by decide)).trans ((host1_keep_main_arg4 (W2 m ρ c)).trans ((W2_of_ne m ρ c main_arg4 (by decide)).trans ((host0_keep_main_arg4 (W0 m ρ c)).trans rfl))))))
theorem at7_main_arg5 : W7 m ρ c (Proc.devRef .tc main_arg5) = m ((c : Thread nD τ).loc main_arg5) :=
  ((W7_of_ne m ρ c main_arg5 (by decide)).trans ((host3_keep_main_arg5 (W5 m ρ c)).trans ((W5_of_ne m ρ c main_arg5 (by decide)).trans ((W4_of_ne m ρ c main_arg5 (by decide)).trans ((host1_keep_main_arg5 (W2 m ρ c)).trans ((W2_of_ne m ρ c main_arg5 (by decide)).trans ((host0_keep_main_arg5 (W0 m ρ c)).trans rfl)))))))
theorem at9_main_arg6 : W9 m ρ c (Proc.devRef .tc main_arg6) = m ((c : Thread nD τ).loc main_arg6) :=
  ((host5_keep_main_arg6 (W8 m ρ c)).trans ((W8_of_ne m ρ c main_arg6 (by decide)).trans ((W7_of_ne m ρ c main_arg6 (by decide)).trans ((host3_keep_main_arg6 (W5 m ρ c)).trans ((W5_of_ne m ρ c main_arg6 (by decide)).trans ((W4_of_ne m ρ c main_arg6 (by decide)).trans ((host1_keep_main_arg6 (W2 m ρ c)).trans ((W2_of_ne m ρ c main_arg6 (by decide)).trans ((host0_keep_main_arg6 (W0 m ρ c)).trans rfl)))))))))
theorem at2_main_v1 : W2 m ρ c (Proc.devRef .tc main_v1) = Cert.ReferenceIdeal.Read.val_main_v1 (F := Ideal) (m ((c : Thread nD τ).loc main_arg7)) :=
  ((W2_of_ne m ρ c main_v1 (by decide)).trans (host0_main_v1 (W0 m ρ c) (m ((c : Thread nD τ).loc main_arg7)) rfl))
theorem at2_main_v3 : W2 m ρ c (Proc.devRef .tc main_v3) = Cert.ReferenceIdeal.Read.val_main_v3 (F := Ideal) (m ((c : Thread nD τ).loc main_arg7)) :=
  ((W2_of_ne m ρ c main_v3 (by decide)).trans (host0_main_v3 (W0 m ρ c) (m ((c : Thread nD τ).loc main_arg7)) rfl))
theorem at2_main_v30 : W2 m ρ c (Proc.devRef .tc main_v30) = Cert.ReferenceIdeal.Read.val_main_v31 (F := Ideal) (m ((c : Thread nD τ).loc main_arg7)) :=
  ((W2_of_ne m ρ c main_v30 (by decide)).trans (host0_main_v30 (W0 m ρ c) (m ((c : Thread nD τ).loc main_arg7)) rfl))
theorem at2_main_v33 : W2 m ρ c (Proc.devRef .tc main_v33) = Cert.ReferenceIdeal.Read.val_main_v52 (F := Ideal) (m ((c : Thread nD τ).loc main_arg7)) :=
  ((W2_of_ne m ρ c main_v33 (by decide)).trans (host0_main_v33 (W0 m ρ c) (m ((c : Thread nD τ).loc main_arg7)) rfl))
theorem at5_main_v1 : W5 m ρ c (Proc.devRef .tc main_v1) = Cert.ReferenceIdeal.Read.val_main_v1 (F := Ideal) (m ((c : Thread nD τ).loc main_arg7)) :=
  ((W5_of_ne m ρ c main_v1 (by decide)).trans ((W4_of_ne m ρ c main_v1 (by decide)).trans ((host1_keep_main_v1 (W2 m ρ c)).trans ((W2_of_ne m ρ c main_v1 (by decide)).trans (host0_main_v1 (W0 m ρ c) (m ((c : Thread nD τ).loc main_arg7)) rfl)))))
theorem at5_main_v3 : W5 m ρ c (Proc.devRef .tc main_v3) = Cert.ReferenceIdeal.Read.val_main_v3 (F := Ideal) (m ((c : Thread nD τ).loc main_arg7)) :=
  ((W5_of_ne m ρ c main_v3 (by decide)).trans ((W4_of_ne m ρ c main_v3 (by decide)).trans ((host1_keep_main_v3 (W2 m ρ c)).trans ((W2_of_ne m ρ c main_v3 (by decide)).trans (host0_main_v3 (W0 m ρ c) (m ((c : Thread nD τ).loc main_arg7)) rfl)))))
theorem at5_main_v30 : W5 m ρ c (Proc.devRef .tc main_v30) = Cert.ReferenceIdeal.Read.val_main_v31 (F := Ideal) (m ((c : Thread nD τ).loc main_arg7)) :=
  ((W5_of_ne m ρ c main_v30 (by decide)).trans ((W4_of_ne m ρ c main_v30 (by decide)).trans ((host1_keep_main_v30 (W2 m ρ c)).trans ((W2_of_ne m ρ c main_v30 (by decide)).trans (host0_main_v30 (W0 m ρ c) (m ((c : Thread nD τ).loc main_arg7)) rfl)))))
theorem at5_main_v33 : W5 m ρ c (Proc.devRef .tc main_v33) = Cert.ReferenceIdeal.Read.val_main_v52 (F := Ideal) (m ((c : Thread nD τ).loc main_arg7)) :=
  ((W5_of_ne m ρ c main_v33 (by decide)).trans ((W4_of_ne m ρ c main_v33 (by decide)).trans ((host1_keep_main_v33 (W2 m ρ c)).trans ((W2_of_ne m ρ c main_v33 (by decide)).trans (host0_main_v33 (W0 m ρ c) (m ((c : Thread nD τ).loc main_arg7)) rfl)))))
theorem at8_main_v1 : W8 m ρ c (Proc.devRef .tc main_v1) = Cert.ReferenceIdeal.Read.val_main_v1 (F := Ideal) (m ((c : Thread nD τ).loc main_arg7)) :=
  ((W8_of_ne m ρ c main_v1 (by decide)).trans ((W7_of_ne m ρ c main_v1 (by decide)).trans ((host3_keep_main_v1 (W5 m ρ c)).trans ((W5_of_ne m ρ c main_v1 (by decide)).trans ((W4_of_ne m ρ c main_v1 (by decide)).trans ((host1_keep_main_v1 (W2 m ρ c)).trans ((W2_of_ne m ρ c main_v1 (by decide)).trans (host0_main_v1 (W0 m ρ c) (m ((c : Thread nD τ).loc main_arg7)) rfl))))))))
theorem at8_main_v3 : W8 m ρ c (Proc.devRef .tc main_v3) = Cert.ReferenceIdeal.Read.val_main_v3 (F := Ideal) (m ((c : Thread nD τ).loc main_arg7)) :=
  ((W8_of_ne m ρ c main_v3 (by decide)).trans ((W7_of_ne m ρ c main_v3 (by decide)).trans ((host3_keep_main_v3 (W5 m ρ c)).trans ((W5_of_ne m ρ c main_v3 (by decide)).trans ((W4_of_ne m ρ c main_v3 (by decide)).trans ((host1_keep_main_v3 (W2 m ρ c)).trans ((W2_of_ne m ρ c main_v3 (by decide)).trans (host0_main_v3 (W0 m ρ c) (m ((c : Thread nD τ).loc main_arg7)) rfl))))))))
theorem at8_main_v30 : W8 m ρ c (Proc.devRef .tc main_v30) = Cert.ReferenceIdeal.Read.val_main_v31 (F := Ideal) (m ((c : Thread nD τ).loc main_arg7)) :=
  ((W8_of_ne m ρ c main_v30 (by decide)).trans ((W7_of_ne m ρ c main_v30 (by decide)).trans ((host3_keep_main_v30 (W5 m ρ c)).trans ((W5_of_ne m ρ c main_v30 (by decide)).trans ((W4_of_ne m ρ c main_v30 (by decide)).trans ((host1_keep_main_v30 (W2 m ρ c)).trans ((W2_of_ne m ρ c main_v30 (by decide)).trans (host0_main_v30 (W0 m ρ c) (m ((c : Thread nD τ).loc main_arg7)) rfl))))))))
theorem at8_main_v33 : W8 m ρ c (Proc.devRef .tc main_v33) = Cert.ReferenceIdeal.Read.val_main_v52 (F := Ideal) (m ((c : Thread nD τ).loc main_arg7)) :=
  ((W8_of_ne m ρ c main_v33 (by decide)).trans ((W7_of_ne m ρ c main_v33 (by decide)).trans ((host3_keep_main_v33 (W5 m ρ c)).trans ((W5_of_ne m ρ c main_v33 (by decide)).trans ((W4_of_ne m ρ c main_v33 (by decide)).trans ((host1_keep_main_v33 (W2 m ρ c)).trans ((W2_of_ne m ρ c main_v33 (by decide)).trans (host0_main_v33 (W0 m ρ c) (m ((c : Thread nD τ).loc main_arg7)) rfl))))))))

/-! ## Layer one -/

/-- The host's contraction against the printed record is the one against the plain record. -/
theorem wholeProduct_eq (X : FVec Ideal S100000x64 .f32) (W : FVec Ideal S64x64 .f32) :
    wholeProduct X W = Host.dotGeneral Cert.ReferenceIdeal.dot_S100000x64_S64x64_S100000x64_1_0_0_1_n_n none X W := rfl

theorem stage_lin1 : W2 m ρ c (Proc.devRef .tc main_v34) = Cert.ReferenceIdeal.Read.val_main_v4 (F := Ideal) (m ((c : Thread nD τ).loc main_arg0)) (m ((c : Thread nD τ).loc main_arg1)) := by
  refine (W2_arr m ρ c 2).trans ((final0 (V1 m ρ) c).trans ?_)
  show wholeProduct (W1 m ρ c (Proc.devRef .tc main_arg0)) (W1 m ρ c (Proc.devRef .tc main_arg1)) = _
  rw [at1_main_arg0 m ρ c, at1_main_arg1 m ρ c]; rfl

theorem stage_agg1 : W3 m ρ c (Proc.devRef .tc main_v55) = Cert.ReferenceIdeal.Read.val_main_v55 (F := Ideal) (m ((c : Thread nD τ).loc main_arg0)) (m ((c : Thread nD τ).loc main_arg1)) (m ((c : Thread nD τ).loc main_arg7)) :=
  host1_agg (W2 m ρ c) _ _ _ (stage_lin1 m ρ c) (at2_main_v1 m ρ c) (at2_main_v3 m ρ c) (at2_main_v30 m ρ c) (at2_main_v33 m ρ c)

theorem stage_act1 : W4 m ρ c (Proc.devRef .tc main_v56) = Cert.ReferenceIdeal.Read.val_main_v63 (F := Ideal) (m ((c : Thread nD τ).loc main_arg0)) (m ((c : Thread nD τ).loc main_arg1)) (m ((c : Thread nD τ).loc main_arg2)) (m ((c : Thread nD τ).loc main_arg7)) := by
  refine (W4_arr m ρ c 2).trans ((final1 (V3 m ρ) c).trans ?_)
  show leakyRows (biasRows (W3 m ρ c (Proc.devRef .tc main_v55)) (W3 m ρ c (Proc.devRef .tc main_arg2))) = _
  rw [stage_agg1 m ρ c, at3_main_arg2 m ρ c]; rfl

/-! ## Layer two -/

theorem stage_lin2 : W5 m ρ c (Proc.devRef .tc main_v57) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (W5_arr m ρ c 2).trans ((final2 (V4 m ρ) c).trans ?_)
  show wholeProduct (W4 m ρ c (Proc.devRef .tc main_v56)) (W4 m ρ c (Proc.devRef .tc main_arg3)) = _
  rw [stage_act1 m ρ c, at4_main_arg3 m ρ c]; rfl

theorem stage_agg2 : W6 m ρ c (Proc.devRef .tc main_v78) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg7)) :=
  host3_agg (W5 m ρ c) _ _ _ _ _ (stage_lin2 m ρ c) (at5_main_v1 m ρ c) (at5_main_v3 m ρ c) (at5_main_v30 m ρ c) (at5_main_v33 m ρ c)

theorem stage_bias2 : W7 m ρ c (Proc.devRef .tc main_v79) = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W7_arr m ρ c 2).trans ((final3 (V6 m ρ) c).trans ?_)
  show biasRows (W6 m ρ c (Proc.devRef .tc main_v78)) (W6 m ρ c (Proc.devRef .tc main_arg4)) = _
  rw [stage_agg2 m ρ c, at6_main_arg4 m ρ c]; rfl

/-! ## Layer three -/

theorem stage_lin3 : W8 m ρ c (Proc.devRef .tc main_v80) = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W8_arr m ρ c 2).trans ((final4 (V7 m ρ) c).trans ?_)
  show wholeProduct (W7 m ρ c (Proc.devRef .tc main_v79)) (W7 m ρ c (Proc.devRef .tc main_arg5)) = _
  rw [stage_bias2 m ρ c, at7_main_arg5 m ρ c]; rfl

theorem stage_agg3 : W9 m ρ c (Proc.devRef .tc main_v101) = Cert.ReferenceIdeal.Read.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  host5_agg (W8 m ρ c) _ _ _ _ _ _ _ (stage_lin3 m ρ c) (at8_main_v1 m ρ c) (at8_main_v3 m ρ c) (at8_main_v30 m ρ c) (at8_main_v33 m ρ c)

/-- At the last boundary the result buffer holds the reference's final stage at the arguments' launch contents. -/
theorem stage_out : W10 m ρ c (Proc.devRef .tc main_v102) = Cert.ReferenceIdeal.Read.val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((final5 (V9 m ρ) c).trans ?_)
  show leakyRows (biasRows (W9 m ρ c (Proc.devRef .tc main_v101)) (W9 m ρ c (Proc.devRef .tc main_arg6))) = _
  rw [stage_agg3 m ρ c, at9_main_arg6 m ρ c]; rfl

/-! ## The run -/

/-- Every weakly fair execution of the idealized kernel terminates, nothing faulting, with the result buffer at the
    reference's final stage of the arguments' launch contents and the arguments as launched. -/
theorem run_value : θ_run defs (onTc (τ := τ) (main (F := Ideal))) ⟨m, fun _ => 0, ρ⟩ (fun r => ∀ c : Dev nD,
      r.2.mem ((c.tc : Thread nD τ).loc main_v102) = Cert.ReferenceIdeal.Read.val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (stage_out m ρ c), (h c).2⟩) (run_result m ρ)

end Cert.KernelIdeal.Whole

end
-- ==== Proof.lean ====
/-
  Three stacked graph-convolution layers on 100000 nodes with 64 features over 1600000 directed edges:
  per layer  h ↦ (Σ over edges e into n of w_e · (h W)[src e]) + (h W)[n] / deg[n] + b,  with
  deg[n] = 1 + the number of edges into n,  w_e = rsqrt(deg[src e]) · rsqrt(deg[dst e]),  a leaky rectifier after
  the first and the third layer.

  The kernel computes each product h W and each bias (and rectifier) epilogue in a ten-point pipeline over blocks of
  ten thousand rows, and everything that follows the edge list — the degrees, the weights, the gathers and the
  scatter-adds — by the same host operations as the reference; it computes the degrees and weights once where the
  reference recomputes them in every layer.  On the extended reals narrowing a factor to bf16 is the identity, a row
  of a product depends only on the same row of the left factor, and the epilogues act entry by entry, so every
  pipeline leaves in its output array the whole-array function the reference applies.  The two programs then apply
  the same operations to the same values; no algebraic law and no finiteness of the inputs is needed.

  The frames of the two kernel programs are the generated ones; the reference's frame is its generated run with the
  result dropped; the ideal pass rewrote nothing, so the idealization claim is trivial.
-/
import proofs.«133144_j16896401342682_1_alg».proof.Defs
import proofs.«133144_j16896401342682_1_alg».proof.Proof.Gen.Kernel
import proofs.«133144_j16896401342682_1_alg».proof.Proof.Gen.Kernel.Skeleton
import proofs.«133144_j16896401342682_1_alg».proof.Proof.Gen.Kernel.Launch
import proofs.«133144_j16896401342682_1_alg».proof.Proof.Gen.Kernel.Points
import proofs.«133144_j16896401342682_1_alg».proof.Proof.Gen.Kernel.Frame
import proofs.«133144_j16896401342682_1_alg».proof.Proof.Gen.KernelIdeal
import proofs.«133144_j16896401342682_1_alg».proof.Proof.Gen.KernelIdeal.Skeleton
import proofs.«133144_j16896401342682_1_alg».proof.Proof.Gen.KernelIdeal.Launch
import proofs.«133144_j16896401342682_1_alg».proof.Proof.Gen.KernelIdeal.Points
import proofs.«133144_j16896401342682_1_alg».proof.Proof.Gen.KernelIdeal.Frame
import proofs.«133144_j16896401342682_1_alg».proof.Proof.Gen.ReferenceIdeal
import proofs.«133144_j16896401342682_1_alg».proof.Proof.Gen.ReferenceIdeal.Run
import proofs.«133144_j16896401342682_1_alg».proof.Proof.Gen.ReferenceIdeal.Read
import proofs.«133144_j16896401342682_1_alg».proof.Proof.Gen.Pre_finite_inputs
import proofs.«133144_j16896401342682_1_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at the reference's final stage of the shared arguments. -/
theorem algebraic : Cert.algebraic_KernelIdeal_ReferenceIdeal := by
  intro m ρ m' ρ' _ hagree
  refine ⟨fun c => Cert.ReferenceIdeal.Read.val_main_v178 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v178_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
